-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 41
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S16384x1024, .f32⟩
  | .hbm, ⟨40, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S16384x1024.size a
  hwx0_15 : ∀ i : grid0.Coords, EltTy.bits .f32 = 32 ∨ (Rect.block (s := S16384x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S16384x1024.size a
  hwx0_16 : ∀ i : grid0.Coords, EltTy.bits .f32 = 32 ∨ (Rect.block (s := S16384x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v28_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v28_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S2048x1024 : Shape := ⟨2, ![2048, 1024]⟩
abbrev S1x1024 : Shape := ⟨2, ![1, 1024]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S2048x1024, .f32⟩
  | .hbm, ⟨13, _⟩ => ⟨S16384x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S2048x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S2048x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S2048x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x2048_S2048x1024_S16384x1024_1_0_0_1_n_n_wf : DotDims.WF S16384x2048 S2048x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.CellSpec.lean ====
/-
  One step of an LSTM cell over the extended reals, entry by entry.

  Inputs: activations `x`, `h`, the previous cell state `cp` (each 16384 × 1024), and per gate a weight
  matrix `W` (1024 × 2048) with a bias `b` (1024). Row `c` of `W` acts on the row `[x_r, h_r]` of length
  2048: its first 1024 columns meet `x_r`, its last 1024 meet `h_r`. A gate's pre-activation at `(r, c)` is

      z(r, c) = Σ_{k<1024} x(r,k)·W(c,k) + Σ_{k<1024} h(r,k)·W(c,1024+k) + b(c),

  the new cell state is  σ(z_f)·cp + σ(z_i)·tanh(z_g)  and the new hidden state is  σ(z_o)·tanh(cell).

  The one law used to compare two spellings of `z`: a sum over 2048 indices is the sum over its first half
  plus the sum over its second half. Addition of extended reals is commutative and associative, so this holds
  for all extended reals; no finiteness is needed.
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

/-- A 16384 × 1024 array of extended reals. -/
abbrev Act : Type := (⟨2, ![16384, 1024]⟩ : Shape).Idx → EReal
/-- A gate's 1024 × 2048 weight matrix. -/
abbrev Wgt : Type := (⟨2, ![1024, 2048]⟩ : Shape).Idx → EReal
/-- A gate's bias vector. -/
abbrev Bias : Type := (⟨1, ![1024]⟩ : Shape).Idx → EReal

/-- Column `k` of the half of a weight row that meets `x`. -/
def lo (k : Fin 1024) : Fin 2048 := ⟨k.val, by have := k.isLt; omega⟩
/-- Column `1024 + k`: the half that meets `h`. -/
def hi (k : Fin 1024) : Fin 2048 := ⟨1024 + k.val, by have := k.isLt; omega⟩

theorem lo_val (k : Fin 1024) : (lo k).val = k.val := rfl
theorem hi_val (k : Fin 1024) : (hi k).val = 1024 + k.val := rfl

/-- A sum over 2048 indices, cut in the middle. -/
theorem sum_halves (f : Fin 2048 → EReal) :
    ∑ k : Fin 2048, f k = (∑ k : Fin 1024, f (lo k)) + ∑ k : Fin 1024, f (hi k) :=
  Fin.sum_univ_add (a := 1024) (b := 1024) (f : Fin (1024 + 1024) → EReal)

/-- A gate's pre-activation at row `r`, unit `c`. -/
def logit (x h : Act) (W : Wgt) (b : Bias) (r : Fin 16384) (c : Fin 1024) : EReal :=
  (∑ k : Fin 1024, x (ix2 r k) * W (ix2 c (lo k))) + (∑ k : Fin 1024, h (ix2 r k) * W (ix2 c (hi k))) + b (ix1 c)

/-- The new cell state at `(r, c)`. -/
def cell (x h cp : Act) (Wf : Wgt) (bf : Bias) (Wi : Wgt) (bi : Bias) (Wg : Wgt) (bg : Bias)
    (r : Fin 16384) (c : Fin 1024) : EReal :=
  Ideal.logistic (logit x h Wf bf r c) * cp (ix2 r c)
    + Ideal.logistic (logit x h Wi bi r c) * Ideal.tanh (logit x h Wg bg r c)

/-- The new hidden state at `(r, c)`. -/
def hidden (x h cp : Act) (Wf : Wgt) (bf : Bias) (Wi : Wgt) (bi : Bias) (Wg : Wgt) (bg : Bias) (Wo : Wgt) (bo : Bias)
    (r : Fin 16384) (c : Fin 1024) : EReal :=
  Ideal.logistic (logit x h Wo bo r c) * Ideal.tanh (cell x h cp Wf bf Wi bi Wg bg r c)

/-- The new cell state as an array. -/
def cellArr (x h cp : Act) (Wf : Wgt) (bf : Bias) (Wi : Wgt) (bi : Bias) (Wg : Wgt) (bg : Bias) : Act :=
  fun i => cell x h cp Wf bf Wi bi Wg bg (i 0) (i 1)

/-- The new hidden state as an array. -/
def hiddenArr (x h cp : Act) (Wf : Wgt) (bf : Bias) (Wi : Wgt) (bi : Bias) (Wg : Wgt) (bg : Bias) (Wo : Wgt) (bo : Bias) : Act :=
  fun i => hidden x h cp Wf bf Wi bi Wg bg Wo bo (i 0) (i 1)

theorem cellArr_apply (x h cp : Act) (Wf : Wgt) (bf : Bias) (Wi : Wgt) (bi : Bias) (Wg : Wgt) (bg : Bias)
    (r : Fin 16384) (c : Fin 1024) :
    cellArr x h cp Wf bf Wi bi Wg bg (ix2 r c) = cell x h cp Wf bf Wi bi Wg bg r c := rfl

theorem hiddenArr_apply (x h cp : Act) (Wf : Wgt) (bf : Bias) (Wi : Wgt) (bi : Bias) (Wg : Wgt) (bg : Bias) (Wo : Wgt) (bo : Bias)
    (r : Fin 16384) (c : Fin 1024) :
    hiddenArr x h cp Wf bf Wi bi Wg bg Wo bo (ix2 r c) = hidden x h cp Wf bf Wi bi Wg bg Wo bo r c := rfl

/-- The single-precision word `0x3F800000` denotes the number one. -/
theorem one_word : Ideal.ofBits .f32 0x3F800000#32 = 1 := by
  simp [Ideal.ofBits, Ideal.ieee, -EReal.coe_mul]; norm_num

/-- The logistic function written out as a quotient, `1 / (1 + exp (-z))` with the ones given by their words. -/
theorem logistic_quotient (z : EReal) :
    Ideal.div (Ideal.ofBits .f32 0x3F800000#32) (Ideal.ofBits .f32 0x3F800000#32 + Ideal.exp (-z)) = Ideal.logistic z := by
  rw [one_word]; rfl

end Cert.CellSpec

end
-- ==== Proof.RefCell.lean ====
/-
  The reference program's two results, entry by entry, are the cell step of `CellSpec`.

  The reference joins `x` and `h` side by side into a 16384 × 2048 array and multiplies it by the transposed
  gate weight: entry `(r, c)` of the product is Σ_{k<2048} [x, h](r,k)·W(c,k). Cutting the sum in the middle,
  its first half reads `x` and its second half reads `h`, which is the pre-activation of `CellSpec.logit`
  once the bias is added. The reference spells the logistic function as the quotient 1 / (1 + exp (-z)).
-/
import proofs.«147838_j76055280877767_1_alg».proof.Proof.Gen.ReferenceIdeal.Read
import proofs.«147838_j76055280877767_1_alg».proof.Proof.CellSpec
import Idealize.ShloMosaic.Lib.Pipeline.Value
import Idealize.ShloMosaic.Lib.ValueIdx

noncomputable section

namespace Cert.ReferenceIdeal.RefCell

open Cert.ReferenceIdeal Cert.ReferenceIdeal.Read Idealize.ShloMosaic Idealize.ShloMosaic.ValueIdx Cert.CellSpec

/-- The joined array's left half is `x`. -/
theorem joined_left (x0 x1 : Act) (j : S16384x2048.Idx) (r : Fin 16384) (k : Fin 1024)
    (h0 : (j 0).val = r.val) (h1 : (j 1).val = k.val) :
    val_main_v0 (F := Ideal) x0 x1 j = x0 (ix2 r k) := by
  unfold val_main_v0
  refine concatenate_pair_apply_left 1 x0 x1 _ j rfl (ix2 r k) (fun b => ?_)
  match b with
  | ⟨0, _⟩ => exact h0.symm
  | ⟨1, _⟩ => exact h1.symm

/-- The joined array's right half is `h`. -/
theorem joined_right (x0 x1 : Act) (j : S16384x2048.Idx) (r : Fin 16384) (k : Fin 1024)
    (h0 : (j 0).val = r.val) (h1 : (j 1).val = 1024 + k.val) :
    val_main_v0 (F := Ideal) x0 x1 j = x1 (ix2 r k) := by
  unfold val_main_v0
  refine concatenate_pair_apply_right 1 x0 x1 _ j rfl rfl (ix2 r k) (fun b hb => ?_) ?_
  · match b with
    | ⟨0, _⟩ => exact h0.symm
    | ⟨1, _⟩ => exact absurd rfl hb
  · show k.val + 1024 = (j 1).val
    omega

/-- A gate's pre-activation in the reference is `logit`. -/
theorem pre_eq (x0 x1 : Act) (W : Wgt) (b : Bias) (r : Fin 16384) (c : Fin 1024) :
    val_main_v5 (F := Ideal) x0 x1 W b (ix2 r c) = logit x0 x1 W b r c := by
  rw [val_main_v5_apply, val_main_v2_apply, val_main_v4_apply, val_main_v3_apply, sum_halves]
  unfold logit
  refine congrArg₂ (· + ·) (congrArg₂ (· + ·) (Finset.sum_congr rfl fun k _ => ?_) (Finset.sum_congr rfl fun k _ => ?_)) ?_
  · rw [joined_left x0 x1 _ r k rfl rfl, val_main_v1_apply]
    exact congrArg (x0 (ix2 r k) * W ·) (funext fun a => Fin.ext (by match a with | ⟨0, _⟩ => rfl | ⟨1, _⟩ => rfl))
  · rw [joined_right x0 x1 _ r k rfl rfl, val_main_v1_apply]
    exact congrArg (x1 (ix2 r k) * W ·) (funext fun a => Fin.ext (by match a with | ⟨0, _⟩ => rfl | ⟨1, _⟩ => rfl))
  · exact congrArg b (funext fun a => Fin.ext (by match a with | ⟨0, _⟩ => rfl))

/-- A logistic gate in the reference. -/
theorem gate_eq (x0 x1 : Act) (W : Wgt) (b : Bias) (r : Fin 16384) (c : Fin 1024) :
    val_main_v11 (F := Ideal) x0 x1 W b (ix2 r c) = Ideal.logistic (logit x0 x1 W b r c) := by
  rw [val_main_v11_apply, val_main_v10_apply, val_main_cst_0_apply, val_main_v9_apply, val_main_v8_apply, val_main_cst_apply,
    val_main_v7_apply, val_main_v6_apply, pre_eq]
  exact logistic_quotient _

/-- The four gates are spelt alike: the later ones are the first one's term at their own weight and bias. -/
theorem v22_eq (x0 x1 : Act) (W : Wgt) (b : Bias) : val_main_v22 (F := Ideal) x0 x1 W b = val_main_v11 (F := Ideal) x0 x1 W b := rfl
theorem v39_eq (x0 x1 : Act) (W : Wgt) (b : Bias) : val_main_v39 (F := Ideal) x0 x1 W b = val_main_v11 (F := Ideal) x0 x1 W b := rfl
theorem v27_eq (x0 x1 : Act) (W : Wgt) (b : Bias) : val_main_v27 (F := Ideal) x0 x1 W b = val_main_v5 (F := Ideal) x0 x1 W b := rfl

/-- The reference's cell state. -/
theorem cell_eq (x0 x1 x2 : Act) (x3 : Wgt) (x4 : Bias) (x5 : Wgt) (x6 : Bias) (x7 : Wgt) (x8 : Bias) :
    val_main_v42 (F := Ideal) x0 x1 x2 x3 x4 x5 x6 x7 x8 = cellArr x0 x1 x2 x3 x4 x5 x6 x7 x8 := by
  funext i
  obtain ⟨r, c, rfl⟩ : ∃ (r : Fin 16384) (c : Fin 1024), i = ix2 r c := ⟨i 0, i 1, eq_ix2 i⟩
  rw [val_main_v42_apply, val_main_v40_apply, val_main_v41_apply, val_main_v28_apply, v22_eq, v27_eq, gate_eq, gate_eq, pre_eq]
  rfl

/-- The reference's hidden state. -/
theorem hidden_eq (x0 x1 x2 : Act) (x3 : Wgt) (x4 : Bias) (x5 : Wgt) (x6 : Bias) (x7 : Wgt) (x8 : Bias) (x9 : Wgt) (x10 : Bias) :
    val_main_v44 (F := Ideal) x0 x1 x2 x3 x4 x5 x6 x7 x8 x9 x10 = hiddenArr x0 x1 x2 x3 x4 x5 x6 x7 x8 x9 x10 := by
  funext i
  obtain ⟨r, c, rfl⟩ : ∃ (r : Fin 16384) (c : Fin 1024), i = ix2 r c := ⟨i 0, i 1, eq_ix2 i⟩
  rw [val_main_v44_apply, val_main_v43_apply, v39_eq, gate_eq, cell_eq]
  rfl

end Cert.ReferenceIdeal.RefCell

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Tile.lean ====
/-
  The kernel body's arithmetic on one tile, read entry by entry over the extended reals.

  A tile is 256 rows. The body holds the tile's rows of `x`, `h` and the previous cell state (`x0`, `x1`, `x2`,
  each 256 × 1024), per gate two 1024 × 1024 matrices (`w`: the transposed halves of the gate's weight) and a
  1 × 1024 bias row. A gate's pre-activation at `(p, q)` of the tile is

      Σ_k x0(p,k)·w(k,q) + Σ_k x1(p,k)·w'(k,q) + b(0,q):

  two matrix products into zero accumulators, added, plus the bias row repeated down the rows. Rounding to a
  narrower format is the identity on extended reals. The stored values are the cell state
  σ(f)·x2 + σ(i)·tanh(g) and the hidden state σ(o)·tanh(cell).
-/
import proofs.«147838_j76055280877767_1_alg».proof.Proof.Gen.KernelIdeal.Skeleton
import proofs.«147838_j76055280877767_1_alg».proof.Proof.CellSpec
import proofs.«147838_j76055280877767_1_alg».proof.Proof.LibPlainMatmul
import Idealize.ShloMosaic.Lib.Pipeline.Value
import Idealize.ShloMosaic.Lib.ValueLayout
import Idealize.ShloMosaic.Lib.ValueIdx

noncomputable section

namespace Cert.KernelIdeal.Tile

open Cert.KernelIdeal Cert.KernelIdeal.Gen Idealize.ShloMosaic Idealize.ShloMosaic.ValueIdx Cert.CellSpec

/-- A 256 × 1024 by 1024 × 1024 product into the zero accumulator, at `(p, q)`. -/
theorem prod_apply (x : FVec Ideal S256x1024 .bf16) (w : FVec Ideal S1024x1024 .bf16) (p : Fin 256) (q : Fin 1024) :
    matmul dot_S256x1024_S1024x1024_S256x1024_1_0_0_1_n_n none x w (constant (F := Ideal) S256x1024 .f32 0x00000000#32) (ix2 p q)
      = ∑ k : Fin 1024, x (ix2 p k) * w (ix2 k q) :=
  Cert.LibPlainMatmul.matmul_zero_apply dot_S256x1024_S1024x1024_S256x1024_1_0_0_1_n_n rfl rfl rfl rfl rfl rfl none x w p q

/-- A gate's pre-activation on the tile, at `(p, q)`. -/
def preTile (x0 x1 : Vec Ideal S256x1024 .f32) (w w' : Vec Ideal S1024x1024 .bf16) (b : Vec Ideal S1x1024 .f32)
    (p : Fin 256) (q : Fin 1024) : EReal :=
  (∑ k : Fin 1024, x0 (ix2 p k) * w (ix2 k q)) + (∑ k : Fin 1024, x1 (ix2 p k) * w' (ix2 k q)) + b (ix2 (0 : Fin 1) q)

/-- The two products added, plus the bias row spread down the rows, is the pre-activation. -/
theorem pre_apply (x0 x1 : FVec Ideal S256x1024 .bf16) (w w' : FVec Ideal S1024x1024 .bf16) (b : FVec Ideal S1x1024 .f32)
    (p : Fin 256) (q : Fin 1024) :
    addf (addf (matmul dot_S256x1024_S1024x1024_S256x1024_1_0_0_1_n_n none x0 w (constant (F := Ideal) S256x1024 .f32 0x00000000#32))
        (matmul dot_S256x1024_S1024x1024_S256x1024_1_0_0_1_n_n none x1 w' (constant (F := Ideal) S256x1024 .f32 0x00000000#32)))
      (broadcastTo S256x1024 b broadcasts_S1x1024_S256x1024) (ix2 p q) = preTile x0 x1 w w' b p q := by
  rw [addf_apply, addf_apply, prod_apply, prod_apply, broadcastTo_1b_ab_apply]
  rfl

/-- The forget gate's value on the tile. -/
theorem pay5_apply (x0 x1 : Vec Ideal S256x1024 .f32) (w w' : Vec Ideal S1024x1024 .bf16) (b : Vec Ideal S1x1024 .f32)
    (p : Fin 256) (q : Fin 1024) :
    k0_pay5 (F := Ideal) x0 x1 w w' b (ix2 p q) = Ideal.logistic (preTile x0 x1 w w' b p q) := by
  unfold k0_pay5 k0_pay3 k0_pay4
  simp only [shapeCast_self]
  exact congrArg Ideal.logistic (pre_apply x0 x1 w w' b p q)

/-- The input gate's value on the tile. -/
theorem pay6_apply (x0 x1 : Vec Ideal S256x1024 .f32) (w w' : Vec Ideal S1024x1024 .bf16) (b : Vec Ideal S1x1024 .f32)
    (p : Fin 256) (q : Fin 1024) :
    k0_pay6 (F := Ideal) x0 x1 w w' b (ix2 p q) = Ideal.logistic (preTile x0 x1 w w' b p q) := by
  unfold k0_pay6 k0_pay3 k0_pay4
  simp only [shapeCast_self]
  exact congrArg Ideal.logistic (pre_apply x0 x1 w w' b p q)

/-- The first product of the candidate gate. -/
theorem pay7_apply (x0 : Vec Ideal S256x1024 .f32) (w : Vec Ideal S1024x1024 .bf16) (p : Fin 256) (q : Fin 1024) :
    k0_pay7 (F := Ideal) x0 w (ix2 p q) = ∑ k : Fin 1024, x0 (ix2 p k) * w (ix2 k q) := by
  unfold k0_pay7 k0_pay3
  simp only [shapeCast_self]
  exact prod_apply x0 w p q

/-- The cell state the body stores, at `(p, q)` of the tile. -/
def cellTile (x0 x1 x2 : Vec Ideal S256x1024 .f32) (w3 w4 w5 w6 w7 w8 : Vec Ideal S1024x1024 .bf16)
    (b11 b12 b13 : Vec Ideal S1x1024 .f32) (p : Fin 256) (q : Fin 1024) : EReal :=
  Ideal.logistic (preTile x0 x1 w3 w4 b11 p q) * x2 (ix2 p q)
    + Ideal.logistic (preTile x0 x1 w5 w6 b12 p q) * Ideal.tanh (preTile x0 x1 w7 w8 b13 p q)

/-- The hidden state the body stores, at `(p, q)` of the tile. -/
def hiddenTile (x0 x1 x2 : Vec Ideal S256x1024 .f32) (w3 w4 w5 w6 w7 w8 w9 w10 : Vec Ideal S1024x1024 .bf16)
    (b11 b12 b13 b14 : Vec Ideal S1x1024 .f32) (p : Fin 256) (q : Fin 1024) : EReal :=
  Ideal.logistic (preTile x0 x1 w9 w10 b14 p q) * Ideal.tanh (cellTile x0 x1 x2 w3 w4 w5 w6 w7 w8 b11 b12 b13 p q)

/-- The cell-state payload from its parts: gates `f`, `i`, the candidate's first product `g1`, and the
    candidate's second operand pair. -/
theorem pay1_apply (x1' : FVec Ideal S256x1024 .bf16) (x2 : Vec Ideal S256x1024 .f32) (f i g1 : FVec Ideal S256x1024 .f32)
    (w8 : Vec Ideal S1024x1024 .bf16) (b13 : Vec Ideal S1x1024 .f32) (p : Fin 256) (q : Fin 1024) :
    k0_pay1 (F := Ideal) x1' x2 f i g1 w8 b13 (ix2 p q)
      = f (ix2 p q) * x2 (ix2 p q)
        + i (ix2 p q) * Ideal.tanh (g1 (ix2 p q) + (∑ k : Fin 1024, x1' (ix2 p k) * w8 (ix2 k q)) + b13 (ix2 (0 : Fin 1) q)) := by
  unfold k0_pay1
  simp only [shapeCast_self]
  show f (ix2 p q) * x2 (ix2 p q) + i (ix2 p q) * Ideal.tanh (g1 (ix2 p q)
      + matmul dot_S256x1024_S1024x1024_S256x1024_1_0_0_1_n_n none x1' w8 (constant (F := Ideal) S256x1024 .f32 0x00000000#32) (ix2 p q)
      + broadcastTo S256x1024 b13 broadcasts_S1x1024_S256x1024 (ix2 p q)) = _
  rw [prod_apply, broadcastTo_1b_ab_apply]

/-- The body's cell-state store is `cellTile`. -/
theorem cell_payload (x0 x1 x2 : Vec Ideal S256x1024 .f32) (w3 w4 w5 w6 w7 w8 : Vec Ideal S1024x1024 .bf16)
    (b11 b12 b13 : Vec Ideal S1x1024 .f32) (p : Fin 256) (q : Fin 1024) :
    k0_pay1 (F := Ideal) (k0_pay4 x1) x2 (k0_pay5 x0 x1 w3 w4 b11) (k0_pay6 x0 x1 w5 w6 b12) (k0_pay7 x0 w7) w8 b13 (ix2 p q)
      = cellTile x0 x1 x2 w3 w4 w5 w6 w7 w8 b11 b12 b13 p q := by
  rw [pay1_apply, pay5_apply, pay6_apply, pay7_apply]
  rfl

/-- The body's hidden-state store is `hiddenTile`. -/
theorem hidden_payload (x0 x1 x2 : Vec Ideal S256x1024 .f32) (w3 w4 w5 w6 w7 w8 w9 w10 : Vec Ideal S1024x1024 .bf16)
    (b11 b12 b13 b14 : Vec Ideal S1x1024 .f32) (p : Fin 256) (q : Fin 1024) :
    k0_pay2 (F := Ideal) (k0_pay3 x0) (k0_pay4 x1) x2 (k0_pay5 x0 x1 w3 w4 b11) (k0_pay6 x0 x1 w5 w6 b12) (k0_pay7 x0 w7) w8 b13 w9 w10 b14 (ix2 p q)
      = hiddenTile x0 x1 x2 w3 w4 w5 w6 w7 w8 w9 w10 b11 b12 b13 b14 p q := by
  unfold k0_pay2
  simp only [shapeCast_self]
  show Ideal.logistic (addf (addf (matmul dot_S256x1024_S1024x1024_S256x1024_1_0_0_1_n_n none (k0_pay3 x0) w9 (constant (F := Ideal) S256x1024 .f32 0x00000000#32))
        (matmul dot_S256x1024_S1024x1024_S256x1024_1_0_0_1_n_n none (k0_pay4 x1) w10 (constant (F := Ideal) S256x1024 .f32 0x00000000#32)))
      (broadcastTo S256x1024 b14 broadcasts_S1x1024_S256x1024) (ix2 p q))
    * Ideal.tanh (k0_pay1 (F := Ideal) (k0_pay4 x1) x2 (k0_pay5 x0 x1 w3 w4 b11) (k0_pay6 x0 x1 w5 w6 b12) (k0_pay7 x0 w7) w8 b13 (ix2 p q)) = _
  rw [cell_payload, pre_apply]
  rfl

/-- A tile pre-activation is the cell's, when the tile's rows and the gate's matrices are read off the arrays. -/
theorem preTile_eq_logit (x0 x1 : Vec Ideal S256x1024 .f32) (w w' : Vec Ideal S1024x1024 .bf16) (b : Vec Ideal S1x1024 .f32)
    (X H : Act) (W : Wgt) (B : Bias) (p : Fin 256) (q : Fin 1024) (r : Fin 16384)
    (hx : ∀ k : Fin 1024, x0 (ix2 p k) = X (ix2 r k)) (hh : ∀ k : Fin 1024, x1 (ix2 p k) = H (ix2 r k))
    (hw : ∀ k : Fin 1024, w (ix2 k q) = W (ix2 q (lo k))) (hw' : ∀ k : Fin 1024, w' (ix2 k q) = W (ix2 q (hi k)))
    (hb : b (ix2 (0 : Fin 1) q) = B (ix1 q)) :
    preTile x0 x1 w w' b p q = logit X H W B r q := by
  unfold preTile logit
  rw [hb]
  refine congrArg₂ (· + ·) (congrArg₂ (· + ·) (Finset.sum_congr rfl fun k _ => ?_) (Finset.sum_congr rfl fun k _ => ?_)) rfl
  · rw [hx k, hw k]
  · rw [hh k, hw' k]

end Cert.KernelIdeal.Tile

end
-- ==== Proof.Staged.lean ====
/-
  The arrays the kernel's region finds, as functions of the program's arguments.

  Before the region the program cuts each gate's 1024 × 2048 weight into its left and right 1024 × 1024 halves,
  transposes each half (and narrows it, which changes nothing over the extended reals), and recasts each
  bias vector as a 1 × 1024 row. So the matrix staged for the `x`-product of a gate holds, at `(k, q)`, the
  weight's entry `(q, k)`; the one staged for the `h`-product holds the weight's entry `(q, 1024 + k)`; and
  the bias row holds the bias at `q`.
-/
import proofs.«147838_j76055280877767_1_alg».proof.Proof.Gen.KernelIdeal.Frame
import proofs.«147838_j76055280877767_1_alg».proof.Proof.CellSpec
import Idealize.ShloMosaic.PureOps.Ideal
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx Cert.CellSpec

/-- The left half of a weight, transposed. -/
def xT (W : FVec Ideal S1024x2048 .f32) : FVec Ideal S1024x1024 .bf16 :=
  truncf .bf16 (transpose S1024x1024 [1, 0] (extractStridedSlice S1024x1024 ![0, 0] W slices_S1024x2048_S1024x1024_0_0)
    transposes_S1024x1024_S1024x1024_1_0) bitsLt_bf16_f32

/-- The right half of a weight, transposed. -/
def hT (W : FVec Ideal S1024x2048 .f32) : FVec Ideal S1024x1024 .bf16 :=
  truncf .bf16 (transpose S1024x1024 [1, 0] (extractStridedSlice S1024x1024 ![0, 1024] W slices_S1024x2048_S1024x1024_0_1024)
    transposes_S1024x1024_S1024x1024_1_0) bitsLt_bf16_f32

/-- A bias vector as a one-row matrix. -/
def row (b : FVec Ideal S1024 .f32) : FVec Ideal S1x1024 .f32 := shapeCast S1x1024 b shapeCasts_S1024_S1x1024

theorem xT_apply (W : FVec Ideal S1024x2048 .f32) (k q : Fin 1024) : xT W (ix2 k q) = W (ix2 q (lo k)) := by
  show transpose S1024x1024 [1, 0] (extractStridedSlice S1024x1024 ![0, 0] W slices_S1024x2048_S1024x1024_0_0)
    transposes_S1024x1024_S1024x1024_1_0 (ix2 k q) = _
  rw [transpose_ix2_apply, slice2_axis1_apply 0 W _ q k (lo k) (by rw [lo_val, Nat.zero_add])]

theorem hT_apply (W : FVec Ideal S1024x2048 .f32) (k q : Fin 1024) : hT W (ix2 k q) = W (ix2 q (hi k)) := by
  show transpose S1024x1024 [1, 0] (extractStridedSlice S1024x1024 ![0, 1024] W slices_S1024x2048_S1024x1024_0_1024)
    transposes_S1024x1024_S1024x1024_1_0 (ix2 k q) = _
  rw [transpose_ix2_apply, slice2_axis1_apply 1024 W _ q k (hi k) (hi_val k)]

theorem row_apply (b : FVec Ideal S1024 .f32) (q : Fin 1024) : row b (ix2 (0 : Fin 1) q) = b (ix1 q) :=
  shapeCast_a_1a_apply b shapeCasts_S1024_S1x1024 0 q

variable (m : (ℓ : Loc nD τ sig) → Buf (Elt Ideal) ℓ)

/-- What the region finds in the array of window 3. -/
theorem V_main_v3 (c : Dev nD) : (V m c main_v3 : FVec Ideal S1024x1024 .bf16) = xT (m ((c : Thread nD τ).loc main_arg3)) := by
  dsimp only [Gen.V, Gen.hostOps0]
  after_results
  rfl

/-- What the region finds in the array of window 4. -/
theorem V_main_v5 (c : Dev nD) : (V m c main_v5 : FVec Ideal S1024x1024 .bf16) = hT (m ((c : Thread nD τ).loc main_arg3)) := by
  dsimp only [Gen.V, Gen.hostOps0]
  after_results
  rfl

/-- What the region finds in the array of window 5. -/
theorem V_main_v9 (c : Dev nD) : (V m c main_v9 : FVec Ideal S1024x1024 .bf16) = xT (m ((c : Thread nD τ).loc main_arg5)) := by
  dsimp only [Gen.V, Gen.hostOps0]
  after_results
  rfl

/-- What the region finds in the array of window 6. -/
theorem V_main_v11 (c : Dev nD) : (V m c main_v11 : FVec Ideal S1024x1024 .bf16) = hT (m ((c : Thread nD τ).loc main_arg5)) := by
  dsimp only [Gen.V, Gen.hostOps0]
  after_results
  rfl

/-- What the region finds in the array of window 7. -/
theorem V_main_v15 (c : Dev nD) : (V m c main_v15 : FVec Ideal S1024x1024 .bf16) = xT (m ((c : Thread nD τ).loc main_arg7)) := by
  dsimp only [Gen.V, Gen.hostOps0]
  after_results
  rfl

/-- What the region finds in the array of window 8. -/
theorem V_main_v17 (c : Dev nD) : (V m c main_v17 : FVec Ideal S1024x1024 .bf16) = hT (m ((c : Thread nD τ).loc main_arg7)) := by
  dsimp only [Gen.V, Gen.hostOps0]
  after_results
  rfl

/-- What the region finds in the array of window 9. -/
theorem V_main_v21 (c : Dev nD) : (V m c main_v21 : FVec Ideal S1024x1024 .bf16) = xT (m ((c : Thread nD τ).loc main_arg9)) := by
  dsimp only [Gen.V, Gen.hostOps0]
  after_results
  rfl

/-- What the region finds in the array of window 10. -/
theorem V_main_v23 (c : Dev nD) : (V m c main_v23 : FVec Ideal S1024x1024 .bf16) = hT (m ((c : Thread nD τ).loc main_arg9)) := by
  dsimp only [Gen.V, Gen.hostOps0]
  after_results
  rfl

/-- What the region finds in the array of window 11. -/
theorem V_main_v24 (c : Dev nD) : (V m c main_v24 : FVec Ideal S1x1024 .f32) = row (m ((c : Thread nD τ).loc main_arg4)) := by
  dsimp only [Gen.V, Gen.hostOps0]
  after_results
  rfl

/-- What the region finds in the array of window 12. -/
theorem V_main_v25 (c : Dev nD) : (V m c main_v25 : FVec Ideal S1x1024 .f32) = row (m ((c : Thread nD τ).loc main_arg6)) := by
  dsimp only [Gen.V, Gen.hostOps0]
  after_results
  rfl

/-- What the region finds in the array of window 13. -/
theorem V_main_v26 (c : Dev nD) : (V m c main_v26 : FVec Ideal S1x1024 .f32) = row (m ((c : Thread nD τ).loc main_arg8)) := by
  dsimp only [Gen.V, Gen.hostOps0]
  after_results
  rfl

/-- What the region finds in the array of window 14. -/
theorem V_main_v27 (c : Dev nD) : (V m c main_v27 : FVec Ideal S1x1024 .f32) = row (m ((c : Thread nD τ).loc main_arg10)) := by
  dsimp only [Gen.V, Gen.hostOps0]
  after_results
  rfl

end Cert.KernelIdeal.Staged

end
-- ==== Proof.Blocks.lean ====
/-
  From the tiles the grid points write back to the two result arrays.

  Grid point `t` (of 64) handles rows `256 t … 256 t + 255`: its blocks of `x`, `h` and the previous cell state
  are those rows of the arguments, every weight and bias window is the whole staged array at every point, and
  what it writes back to each result is the tile of `Tile`. Read through the arguments, entry `(p, q)` of the
  tile is entry `(256 t + p, q)` of the cell step of `CellSpec`. The 64 row blocks cover the result arrays,
  so after the run each result array is the cell step of the arguments.
-/
import proofs.«147838_j76055280877767_1_alg».proof.Proof.Gen.KernelIdeal.Value
import proofs.«147838_j76055280877767_1_alg».proof.Proof.Tile
import proofs.«147838_j76055280877767_1_alg».proof.Proof.Staged
import proofs.«147838_j76055280877767_1_alg».proof.Proof.CellSpec
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Cert.CellSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The row-blocked windows (the three activations and the two results) sit at block `(t, 0)` at point `t`. -/
theorem row_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- The weight and bias windows sit at block `(0, 0)` at every point. -/
theorem whole_index : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-- Window 0's block at point `t` is rows `256 t …` of its argument. -/
theorem rows0 (c : Dev nD) (t : Fin cfg0.N) (p : Fin 256) (k : Fin 1024) (r : Fin 16384) (hr : r.val = 256 * t.val + p.val) :
    (iblk m c 0 t : Vec Ideal S256x1024 .f32) (ix2 p k) = ((m ((c : Thread nD τ).loc main_arg0)) : Act) (ix2 r k) := by
  have hi := row_index t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- Window 1's block at point `t` is rows `256 t …` of its argument. -/
theorem rows1 (c : Dev nD) (t : Fin cfg0.N) (p : Fin 256) (k : Fin 1024) (r : Fin 16384) (hr : r.val = 256 * t.val + p.val) :
    (iblk m c 1 t : Vec Ideal S256x1024 .f32) (ix2 p k) = ((m ((c : Thread nD τ).loc main_arg1)) : Act) (ix2 r k) := by
  have hi := row_index t
  unfold iblk
  rw [View.read_apply]
  show V m c main_arg1 _ = _
  rw [V_main_arg1]
  refine congrArg _ (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

/-- Window 2's block at point `t` is rows `256 t …` of its argument. -/
theorem rows2 (c : Dev nD) (t : Fin cfg0.N) (p : Fin 256) (k : Fin 1024) (r : Fin 16384) (hr : r.val = 256 * t.val + p.val) :
    (iblk m c 2 t : Vec Ideal S256x1024 .f32) (ix2 p k) = ((m ((c : Thread nD τ).loc main_arg2)) : Act) (ix2 r k) := by
  have hi := row_index t
  unfold iblk
  rw [View.read_apply]
  show V m c main_arg2 _ = _
  rw [V_main_arg2]
  refine congrArg _ (funext fun a => Fin.ext ?_)
  match a with
  | ⟨0, _⟩ => show win0_2.index t (0 : Fin 2) * 256 + 1 * p.val = r.val; omega
  | ⟨1, _⟩ => show win0_2.index t (1 : Fin 2) * 1024 + 1 * k.val = k.val; omega

/-- Window 3's block is the whole staged half-weight at every point. -/
theorem whole3 (c : Dev nD) (t : Fin cfg0.N) (k q : Fin 1024) :
    (iblk m c 3 t : Vec Ideal S1024x1024 .bf16) (ix2 k q) = ((m ((c : Thread nD τ).loc main_arg3)) : Wgt) (ix2 q (lo k)) := by
  have hi := whole_index t
  unfold iblk
  rw [View.read_apply]
  show (V m c main_v3 : FVec Ideal S1024x1024 .bf16) _ = _
  rw [Staged.V_main_v3 m c]
  refine (congrArg _ (funext fun a => Fin.ext ?_)).trans (Staged.xT_apply _ k q)
  match a with
  | ⟨0, _⟩ => show win0_3.index t (0 : Fin 2) * 1024 + 1 * k.val = k.val; omega
  | ⟨1, _⟩ => show win0_3.index t (1 : Fin 2) * 1024 + 1 * q.val = q.val; omega

/-- Window 4's block is the whole staged half-weight at every point. -/
theorem whole4 (c : Dev nD) (t : Fin cfg0.N) (k q : Fin 1024) :
    (iblk m c 4 t : Vec Ideal S1024x1024 .bf16) (ix2 k q) = ((m ((c : Thread nD τ).loc main_arg3)) : Wgt) (ix2 q (hi k)) := by
  have hi := whole_index t
  unfold iblk
  rw [View.read_apply]
  show (V m c main_v5 : FVec Ideal S1024x1024 .bf16) _ = _
  rw [Staged.V_main_v5 m c]
  refine (congrArg _ (funext fun a => Fin.ext ?_)).trans (Staged.hT_apply _ k q)
  match a with
  | ⟨0, _⟩ => show win0_4.index t (0 : Fin 2) * 1024 + 1 * k.val = k.val; omega
  | ⟨1, _⟩ => show win0_4.index t (1 : Fin 2) * 1024 + 1 * q.val = q.val; omega

/-- Window 5's block is the whole staged half-weight at every point. -/
theorem whole5 (c : Dev nD) (t : Fin cfg0.N) (k q : Fin 1024) :
    (iblk m c 5 t : Vec Ideal S1024x1024 .bf16) (ix2 k q) = ((m ((c : Thread nD τ).loc main_arg5)) : Wgt) (ix2 q (lo k)) := by
  have hi := whole_index t
  unfold iblk
  rw [View.read_apply]
  show (V m c main_v9 : FVec Ideal S1024x1024 .bf16) _ = _
  rw [Staged.V_main_v9 m c]
  refine (congrArg _ (funext fun a => Fin.ext ?_)).trans (Staged.xT_apply _ k q)
  match a with
  | ⟨0, _⟩ => show win0_5.index t (0 : Fin 2) * 1024 + 1 * k.val = k.val; omega
  | ⟨1, _⟩ => show win0_5.index t (1 : Fin 2) * 1024 + 1 * q.val = q.val; omega

/-- Window 6's block is the whole staged half-weight at every point. -/
theorem whole6 (c : Dev nD) (t : Fin cfg0.N) (k q : Fin 1024) :
    (iblk m c 6 t : Vec Ideal S1024x1024 .bf16) (ix2 k q) = ((m ((c : Thread nD τ).loc main_arg5)) : Wgt) (ix2 q (hi k)) := by
  have hi := whole_index t
  unfold iblk
  rw [View.read_apply]
  show (V m c main_v11 : FVec Ideal S1024x1024 .bf16) _ = _
  rw [Staged.V_main_v11 m c]
  refine (congrArg _ (funext fun a => Fin.ext ?_)).trans (Staged.hT_apply _ k q)
  match a with
  | ⟨0, _⟩ => show win0_6.index t (0 : Fin 2) * 1024 + 1 * k.val = k.val; omega
  | ⟨1, _⟩ => show win0_6.index t (1 : Fin 2) * 1024 + 1 * q.val = q.val; omega

/-- Window 7's block is the whole staged half-weight at every point. -/
theorem whole7 (c : Dev nD) (t : Fin cfg0.N) (k q : Fin 1024) :
    (iblk m c 7 t : Vec Ideal S1024x1024 .bf16) (ix2 k q) = ((m ((c : Thread nD τ).loc main_arg7)) : Wgt) (ix2 q (lo k)) := by
  have hi := whole_index t
  unfold iblk
  rw [View.read_apply]
  show (V m c main_v15 : FVec Ideal S1024x1024 .bf16) _ = _
  rw [Staged.V_main_v15 m c]
  refine (congrArg _ (funext fun a => Fin.ext ?_)).trans (Staged.xT_apply _ k q)
  match a with
  | ⟨0, _⟩ => show win0_7.index t (0 : Fin 2) * 1024 + 1 * k.val = k.val; omega
  | ⟨1, _⟩ => show win0_7.index t (1 : Fin 2) * 1024 + 1 * q.val = q.val; omega

/-- Window 8's block is the whole staged half-weight at every point. -/
theorem whole8 (c : Dev nD) (t : Fin cfg0.N) (k q : Fin 1024) :
    (iblk m c 8 t : Vec Ideal S1024x1024 .bf16) (ix2 k q) = ((m ((c : Thread nD τ).loc main_arg7)) : Wgt) (ix2 q (hi k)) := by
  have hi := whole_index t
  unfold iblk
  rw [View.read_apply]
  show (V m c main_v17 : FVec Ideal S1024x1024 .bf16) _ = _
  rw [Staged.V_main_v17 m c]
  refine (congrArg _ (funext fun a => Fin.ext ?_)).trans (Staged.hT_apply _ k q)
  match a with
  | ⟨0, _⟩ => show win0_8.index t (0 : Fin 2) * 1024 + 1 * k.val = k.val; omega
  | ⟨1, _⟩ => show win0_8.index t (1 : Fin 2) * 1024 + 1 * q.val = q.val; omega

/-- Window 9's block is the whole staged half-weight at every point. -/
theorem whole9 (c : Dev nD) (t : Fin cfg0.N) (k q : Fin 1024) :
    (iblk m c 9 t : Vec Ideal S1024x1024 .bf16) (ix2 k q) = ((m ((c : Thread nD τ).loc main_arg9)) : Wgt) (ix2 q (lo k)) := by
  have hi := whole_index t
  unfold iblk
  rw [View.read_apply]
  show (V m c main_v21 : FVec Ideal S1024x1024 .bf16) _ = _
  rw [Staged.V_main_v21 m c]
  refine (congrArg _ (funext fun a => Fin.ext ?_)).trans (Staged.xT_apply _ k q)
  match a with
  | ⟨0, _⟩ => show win0_9.index t (0 : Fin 2) * 1024 + 1 * k.val = k.val; omega
  | ⟨1, _⟩ => show win0_9.index t (1 : Fin 2) * 1024 + 1 * q.val = q.val; omega

/-- Window 10's block is the whole staged half-weight at every point. -/
theorem whole10 (c : Dev nD) (t : Fin cfg0.N) (k q : Fin 1024) :
    (iblk m c 10 t : Vec Ideal S1024x1024 .bf16) (ix2 k q) = ((m ((c : Thread nD τ).loc main_arg9)) : Wgt) (ix2 q (hi k)) := by
  have hi := whole_index t
  unfold iblk
  rw [View.read_apply]
  show (V m c main_v23 : FVec Ideal S1024x1024 .bf16) _ = _
  rw [Staged.V_main_v23 m c]
  refine (congrArg _ (funext fun a => Fin.ext ?_)).trans (Staged.hT_apply _ k q)
  match a with
  | ⟨0, _⟩ => show win0_10.index t (0 : Fin 2) * 1024 + 1 * k.val = k.val; omega
  | ⟨1, _⟩ => show win0_10.index t (1 : Fin 2) * 1024 + 1 * q.val = q.val; omega

/-- Window 11's block is the whole bias row at every point. -/
theorem whole11 (c : Dev nD) (t : Fin cfg0.N) (q : Fin 1024) :
    (iblk m c 11 t : Vec Ideal S1x1024 .f32) (ix2 (0 : Fin 1) q) = ((m ((c : Thread nD τ).loc main_arg4)) : Bias) (ix1 q) := by
  have hi := whole_index t
  unfold iblk
  rw [View.read_apply]
  show (V m c main_v24 : FVec Ideal S1x1024 .f32) _ = _
  rw [Staged.V_main_v24 m c]
  refine (congrArg _ (funext fun a => Fin.ext ?_)).trans (Staged.row_apply _ q)
  match a with
  | ⟨0, _⟩ => show win0_11.index t (0 : Fin 2) * 1 + 1 * 0 = 0; omega
  | ⟨1, _⟩ => show win0_11.index t (1 : Fin 2) * 1024 + 1 * q.val = q.val; omega

/-- Window 12's block is the whole bias row at every point. -/
theorem whole12 (c : Dev nD) (t : Fin cfg0.N) (q : Fin 1024) :
    (iblk m c 12 t : Vec Ideal S1x1024 .f32) (ix2 (0 : Fin 1) q) = ((m ((c : Thread nD τ).loc main_arg6)) : Bias) (ix1 q) := by
  have hi := whole_index t
  unfold iblk
  rw [View.read_apply]
  show (V m c main_v25 : FVec Ideal S1x1024 .f32) _ = _
  rw [Staged.V_main_v25 m c]
  refine (congrArg _ (funext fun a => Fin.ext ?_)).trans (Staged.row_apply _ q)
  match a with
  | ⟨0, _⟩ => show win0_12.index t (0 : Fin 2) * 1 + 1 * 0 = 0; omega
  | ⟨1, _⟩ => show win0_12.index t (1 : Fin 2) * 1024 + 1 * q.val = q.val; omega

/-- Window 13's block is the whole bias row at every point. -/
theorem whole13 (c : Dev nD) (t : Fin cfg0.N) (q : Fin 1024) :
    (iblk m c 13 t : Vec Ideal S1x1024 .f32) (ix2 (0 : Fin 1) q) = ((m ((c : Thread nD τ).loc main_arg8)) : Bias) (ix1 q) := by
  have hi := whole_index t
  unfold iblk
  rw [View.read_apply]
  show (V m c main_v26 : FVec Ideal S1x1024 .f32) _ = _
  rw [Staged.V_main_v26 m c]
  refine (congrArg _ (funext fun a => Fin.ext ?_)).trans (Staged.row_apply _ q)
  match a with
  | ⟨0, _⟩ => show win0_13.index t (0 : Fin 2) * 1 + 1 * 0 = 0; omega
  | ⟨1, _⟩ => show win0_13.index t (1 : Fin 2) * 1024 + 1 * q.val = q.val; omega

/-- Window 14's block is the whole bias row at every point. -/
theorem whole14 (c : Dev nD) (t : Fin cfg0.N) (q : Fin 1024) :
    (iblk m c 14 t : Vec Ideal S1x1024 .f32) (ix2 (0 : Fin 1) q) = ((m ((c : Thread nD τ).loc main_arg10)) : Bias) (ix1 q) := by
  have hi := whole_index t
  unfold iblk
  rw [View.read_apply]
  show (V m c main_v27 : FVec Ideal S1x1024 .f32) _ = _
  rw [Staged.V_main_v27 m c]
  refine (congrArg _ (funext fun a => Fin.ext ?_)).trans (Staged.row_apply _ q)
  match a with
  | ⟨0, _⟩ => show win0_14.index t (0 : Fin 2) * 1 + 1 * 0 = 0; omega
  | ⟨1, _⟩ => show win0_14.index t (1 : Fin 2) * 1024 + 1 * q.val = q.val; omega

/-- Gate `f`'s pre-activation on the tile of point `t` is the cell's at row `256 t + p`. -/
theorem pre_f (c : Dev nD) (t : Fin cfg0.N) (p : Fin 256) (q : Fin 1024) (r : Fin 16384) (hr : r.val = 256 * t.val + p.val) :
    Tile.preTile (iblk m c 0 t) (iblk m c 1 t) (iblk m c 3 t) (iblk m c 4 t) (iblk m c 11 t) p q
      = logit (m ((c : Thread nD τ).loc main_arg0)) (m ((c : Thread nD τ).loc main_arg1)) (m ((c : Thread nD τ).loc main_arg3)) (m ((c : Thread nD τ).loc main_arg4)) r q :=
  Tile.preTile_eq_logit (iblk m c 0 t) (iblk m c 1 t) (iblk m c 3 t) (iblk m c 4 t) (iblk m c 11 t)
    (m ((c : Thread nD τ).loc main_arg0)) (m ((c : Thread nD τ).loc main_arg1)) (m ((c : Thread nD τ).loc main_arg3)) (m ((c : Thread nD τ).loc main_arg4)) p q r
    (fun k => rows0 m c t p k r hr) (fun k => rows1 m c t p k r hr) (fun k => whole3 m c t k q) (fun k => whole4 m c t k q)
    (whole11 m c t q)

/-- Gate `i`'s pre-activation on the tile of point `t` is the cell's at row `256 t + p`. -/
theorem pre_i (c : Dev nD) (t : Fin cfg0.N) (p : Fin 256) (q : Fin 1024) (r : Fin 16384) (hr : r.val = 256 * t.val + p.val) :
    Tile.preTile (iblk m c 0 t) (iblk m c 1 t) (iblk m c 5 t) (iblk m c 6 t) (iblk m c 12 t) p q
      = logit (m ((c : Thread nD τ).loc main_arg0)) (m ((c : Thread nD τ).loc main_arg1)) (m ((c : Thread nD τ).loc main_arg5)) (m ((c : Thread nD τ).loc main_arg6)) r q :=
  Tile.preTile_eq_logit (iblk m c 0 t) (iblk m c 1 t) (iblk m c 5 t) (iblk m c 6 t) (iblk m c 12 t)
    (m ((c : Thread nD τ).loc main_arg0)) (m ((c : Thread nD τ).loc main_arg1)) (m ((c : Thread nD τ).loc main_arg5)) (m ((c : Thread nD τ).loc main_arg6)) p q r
    (fun k => rows0 m c t p k r hr) (fun k => rows1 m c t p k r hr) (fun k => whole5 m c t k q) (fun k => whole6 m c t k q)
    (whole12 m c t q)

/-- Gate `g`'s pre-activation on the tile of point `t` is the cell's at row `256 t + p`. -/
theorem pre_g (c : Dev nD) (t : Fin cfg0.N) (p : Fin 256) (q : Fin 1024) (r : Fin 16384) (hr : r.val = 256 * t.val + p.val) :
    Tile.preTile (iblk m c 0 t) (iblk m c 1 t) (iblk m c 7 t) (iblk m c 8 t) (iblk m c 13 t) p q
      = logit (m ((c : Thread nD τ).loc main_arg0)) (m ((c : Thread nD τ).loc main_arg1)) (m ((c : Thread nD τ).loc main_arg7)) (m ((c : Thread nD τ).loc main_arg8)) r q :=
  Tile.preTile_eq_logit (iblk m c 0 t) (iblk m c 1 t) (iblk m c 7 t) (iblk m c 8 t) (iblk m c 13 t)
    (m ((c : Thread nD τ).loc main_arg0)) (m ((c : Thread nD τ).loc main_arg1)) (m ((c : Thread nD τ).loc main_arg7)) (m ((c : Thread nD τ).loc main_arg8)) p q r
    (fun k => rows0 m c t p k r hr) (fun k => rows1 m c t p k r hr) (fun k => whole7 m c t k q) (fun k => whole8 m c t k q)
    (whole13 m c t q)

/-- Gate `o`'s pre-activation on the tile of point `t` is the cell's at row `256 t + p`. -/
theorem pre_o (c : Dev nD) (t : Fin cfg0.N) (p : Fin 256) (q : Fin 1024) (r : Fin 16384) (hr : r.val = 256 * t.val + p.val) :
    Tile.preTile (iblk m c 0 t) (iblk m c 1 t) (iblk m c 9 t) (iblk m c 10 t) (iblk m c 14 t) p q
      = logit (m ((c : Thread nD τ).loc main_arg0)) (m ((c : Thread nD τ).loc main_arg1)) (m ((c : Thread nD τ).loc main_arg9)) (m ((c : Thread nD τ).loc main_arg10)) r q :=
  Tile.preTile_eq_logit (iblk m c 0 t) (iblk m c 1 t) (iblk m c 9 t) (iblk m c 10 t) (iblk m c 14 t)
    (m ((c : Thread nD τ).loc main_arg0)) (m ((c : Thread nD τ).loc main_arg1)) (m ((c : Thread nD τ).loc main_arg9)) (m ((c : Thread nD τ).loc main_arg10)) p q r
    (fun k => rows0 m c t p k r hr) (fun k => rows1 m c t p k r hr) (fun k => whole9 m c t k q) (fun k => whole10 m c t k q)
    (whole14 m c t q)

/-- The cell state the point writes, entry `(p, q)`, is the cell step's at `(256 t + p, q)`. -/
theorem cell_entry (c : Dev nD) (t : Fin cfg0.N) (p : Fin 256) (q : Fin 1024) (r : Fin 16384) (hr : r.val = 256 * t.val + p.val) :
    Tile.cellTile (iblk m c 0 t) (iblk m c 1 t) (iblk m c 2 t) (iblk m c 3 t) (iblk m c 4 t) (iblk m c 5 t) (iblk m c 6 t) (iblk m c 7 t) (iblk m c 8 t) (iblk m c 11 t) (iblk m c 12 t) (iblk m c 13 t) p q
      = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r q := by
  unfold Tile.cellTile cell
  rw [pre_f m c t p q r hr, pre_i m c t p q r hr, pre_g m c t p q r hr, rows2 m c t p q r hr]

/-- The hidden state the point writes, entry `(p, q)`, is the cell step's at `(256 t + p, q)`. -/
theorem hidden_entry (c : Dev nD) (t : Fin cfg0.N) (p : Fin 256) (q : Fin 1024) (r : Fin 16384) (hr : r.val = 256 * t.val + p.val) :
    Tile.hiddenTile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q
      = CellSpec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r q := by
  unfold Tile.hiddenTile CellSpec.hidden
  rw [pre_o m c t p q r hr, cell_entry m c t p q r hr]

/-- An index of a result array is in point `t`'s block iff each coordinate is in the block's range on its axis. -/
theorem mem_blk15 (t : Fin cfg0.N) (i : S16384x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v28_0).slice (win0_15.rect t)).set ↔ _
  rw [View.set_slice_whole, Rect.mem_set_unit]
  exact Iff.rfl

theorem mem_blk16 (t : Fin cfg0.N) (i : S16384x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v28_1).slice (win0_16.rect t)).set ↔ _
  rw [View.set_slice_whole, Rect.mem_set_unit]
  exact Iff.rfl

/-- Row `i` lies in the block of point `i / 256`. -/
theorem cover15 (i : S16384x1024.Idx) : ∃ t : Fin cfg0.N, (cfg0.win 15).flush t = true ∧ i ∈ ((cfg0.win 15).blk t).view.set := by
  have h0 : (i 0).val < 16384 := (i 0).isLt
  have h1 : (i 1).val < 1024 := (i 1).isLt
  have hN : cfg0.N = 64 := N_0
  refine ⟨⟨(i 0).val / 256, by rw [hN]; omega⟩, flush0_15 _, ?_⟩
  rw [mem_blk15]
  have hi := row_index ⟨(i 0).val / 256, by rw [hN]; omega⟩
  intro a
  match a with
  | ⟨0, _⟩ =>
    show win0_15.index _ (0 : Fin 2) * 256 ≤ (i 0).val ∧ (i 0).val < win0_15.index _ (0 : Fin 2) * 256 + 256
    rw [hi.2.2.2.2.2.2.1]
    show (i 0).val / 256 * 256 ≤ (i 0).val ∧ (i 0).val < (i 0).val / 256 * 256 + 256
    omega
  | ⟨1, _⟩ =>
    show win0_15.index _ (1 : Fin 2) * 1024 ≤ (i 1).val ∧ (i 1).val < win0_15.index _ (1 : Fin 2) * 1024 + 1024
    rw [hi.2.2.2.2.2.2.2.1]
    omega

theorem cover16 (i : S16384x1024.Idx) : ∃ t : Fin cfg0.N, (cfg0.win 16).flush t = true ∧ i ∈ ((cfg0.win 16).blk t).view.set := by
  have h0 : (i 0).val < 16384 := (i 0).isLt
  have h1 : (i 1).val < 1024 := (i 1).isLt
  have hN : cfg0.N = 64 := N_0
  refine ⟨⟨(i 0).val / 256, by rw [hN]; omega⟩, flush0_16 _, ?_⟩
  rw [mem_blk16]
  have hi := row_index ⟨(i 0).val / 256, by rw [hN]; omega⟩
  intro a
  match a with
  | ⟨0, _⟩ =>
    show win0_16.index _ (0 : Fin 2) * 256 ≤ (i 0).val ∧ (i 0).val < win0_16.index _ (0 : Fin 2) * 256 + 256
    rw [hi.2.2.2.2.2.2.2.2.1]
    show (i 0).val / 256 * 256 ≤ (i 0).val ∧ (i 0).val < (i 0).val / 256 * 256 + 256
    omega
  | ⟨1, _⟩ =>
    show win0_16.index _ (1 : Fin 2) * 1024 ≤ (i 1).val ∧ (i 1).val < win0_16.index _ (1 : Fin 2) * 1024 + 1024
    rw [hi.2.2.2.2.2.2.2.2.2]
    omega

/-- What point `t` writes back to the hidden-state array is block `t` of the cell step's hidden state. -/
theorem flushed_hidden (c : Dev nD) (t : Fin cfg0.N) :
    (dats m 0 c).flushed 15 t = ((cfg0.win 15).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed15]
  unfold out0_15
  rw [View.canon_unit_zero hz]
  simp only [View.ld_unit_zero (S := S256x1024) hz, View.ld_unit_zero (S := S1024x1024) hz, View.ld_unit_zero (S := S1x1024) hz]
  funext y
  have hi := row_index t
  have hN : cfg0.N = 64 := N_0
  have ht : t.val < 64 := by have := t.isLt; omega
  have hy0 : (y 0).val < 256 := (y 0).isLt
  have hy1 : (y 1).val < 1024 := (y 1).isLt
  obtain ⟨p, hp⟩ : ∃ p : Fin 256, p.val = (y 0).val := ⟨⟨(y 0).val, hy0⟩, rfl⟩
  obtain ⟨q, hq⟩ : ∃ q : Fin 1024, q.val = (y 1).val := ⟨⟨(y 1).val, hy1⟩, rfl⟩
  obtain ⟨r, hr⟩ : ∃ r : Fin 16384, r.val = 256 * t.val + p.val := ⟨⟨256 * t.val + p.val, by have := p.isLt; omega⟩, rfl⟩
  have ey : y = ix2 p q := funext fun a => Fin.ext (by
    match a with
    | ⟨0, _⟩ => exact hp.symm
    | ⟨1, _⟩ => exact hq.symm)
  have ee : ((cfg0.win 15).blk t).view.emb y = ix2 r q := funext fun a => Fin.ext (by
    match a with
    | ⟨0, _⟩ => show win0_15.index t (0 : Fin 2) * 256 + 1 * (y 0).val = r.val; omega
    | ⟨1, _⟩ => show win0_15.index t (1 : Fin 2) * 1024 + 1 * (y 1).val = q.val; omega)
  show k0_pay2 (F := Ideal) (k0_pay3 (iblk m c 0 t)) (k0_pay4 (iblk m c 1 t)) (iblk m c 2 t)
        (k0_pay5 (iblk m c 0 t) (iblk m c 1 t) (iblk m c 3 t) (iblk m c 4 t) (iblk m c 11 t))
        (k0_pay6 (iblk m c 0 t) (iblk m c 1 t) (iblk m c 5 t) (iblk m c 6 t) (iblk m c 12 t))
        (k0_pay7 (iblk m c 0 t) (iblk m c 7 t)) (iblk m c 8 t) (iblk m c 13 t) (iblk m c 9 t) (iblk m c 10 t) (iblk m c 14 t) y
      = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 15).blk t).view.emb y)
  rw [ee]
  exact (congrArg _ ey).trans ((Tile.hidden_payload (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans (hidden_entry m c t p q r hr))

/-- What point `t` writes back to the cell-state array is block `t` of the cell step's cell state. -/
theorem flushed_cell (c : Dev nD) (t : Fin cfg0.N) :
    (dats m 0 c).flushed 16 t = ((cfg0.win 16).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed16]
  unfold out0_16
  rw [View.canon_unit_zero hz]
  simp only [View.ld_unit_zero (S := S256x1024) hz, View.ld_unit_zero (S := S1024x1024) hz, View.ld_unit_zero (S := S1x1024) hz]
  funext y
  have hi := row_index t
  have hN : cfg0.N = 64 := N_0
  have ht : t.val < 64 := by have := t.isLt; omega
  have hy0 : (y 0).val < 256 := (y 0).isLt
  have hy1 : (y 1).val < 1024 := (y 1).isLt
  obtain ⟨p, hp⟩ : ∃ p : Fin 256, p.val = (y 0).val := ⟨⟨(y 0).val, hy0⟩, rfl⟩
  obtain ⟨q, hq⟩ : ∃ q : Fin 1024, q.val = (y 1).val := ⟨⟨(y 1).val, hy1⟩, rfl⟩
  obtain ⟨r, hr⟩ : ∃ r : Fin 16384, r.val = 256 * t.val + p.val := ⟨⟨256 * t.val + p.val, by have := p.isLt; omega⟩, rfl⟩
  have ey : y = ix2 p q := funext fun a => Fin.ext (by
    match a with
    | ⟨0, _⟩ => exact hp.symm
    | ⟨1, _⟩ => exact hq.symm)
  have ee : ((cfg0.win 16).blk t).view.emb y = ix2 r q := funext fun a => Fin.ext (by
    match a with
    | ⟨0, _⟩ => show win0_16.index t (0 : Fin 2) * 256 + 1 * (y 0).val = r.val; omega
    | ⟨1, _⟩ => show win0_16.index t (1 : Fin 2) * 1024 + 1 * (y 1).val = q.val; omega)
  show k0_pay1 (F := Ideal) (k0_pay4 (iblk m c 1 t)) (iblk m c 2 t)
        (k0_pay5 (iblk m c 0 t) (iblk m c 1 t) (iblk m c 3 t) (iblk m c 4 t) (iblk m c 11 t))
        (k0_pay6 (iblk m c 0 t) (iblk m c 1 t) (iblk m c 5 t) (iblk m c 6 t) (iblk m c 12 t))
        (k0_pay7 (iblk m c 0 t) (iblk m c 7 t)) (iblk m c 8 t) (iblk m c 13 t) y
      = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 16).blk t).view.emb y)
  rw [ee]
  exact (congrArg _ ey).trans ((Tile.cell_payload (iblk m c 0 t) (iblk m c 1 t) (iblk m c 2 t) (iblk m c 3 t) (iblk m c 4 t) (iblk m c 5 t) (iblk m c 6 t) (iblk m c 7 t) (iblk m c 8 t) (iblk m c 11 t) (iblk m c 12 t) (iblk m c 13 t) p q).trans (cell_entry m c t p q r hr))

/-- After the run the hidden-state array is the cell step's hidden state of the arguments. -/
theorem final_hidden (c : Dev nD) : (dats m 0 c).arrAt 15 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 15 _ (fun t _ => flushed_hidden m c t) cover15

/-- After the run the cell-state array is the cell step's cell state of the arguments. -/
theorem final_cell (c : Dev nD) : (dats m 0 c).arrAt 16 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 16 _ (fun t _ => flushed_cell m c t) cover16

/-- The kernel's run over the extended reals: it terminates with the two results at the cell step of the
    arguments, and the arguments as they were. -/
theorem run : θ_run defs (onTc (τ := τ) (main (F := Ideal))) ⟨m, fun _ => 0, ρ⟩ fun r => ∀ c : Dev nD,
      r.2.mem ((c : Thread nD τ).loc main_v28_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v28_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_cell m c), (h c).2.2⟩)
    (Cert.KernelIdeal.Value.run_blocks m ρ)

end Cert.KernelIdeal.Blocks

end
-- ==== Proof.lean ====
/-
  An LSTM cell step computed two ways, equal over the extended reals.

  The kernel walks the batch in 64 tiles of 256 rows. Per gate it multiplies the tile's rows of `x` by the
  transposed left half of the gate's weight and the tile's rows of `h` by the transposed right half, adds the
  two products and the bias, and applies the logistic function (tanh for the candidate); it stores
  c' = σ(f)·c + σ(i)·tanh(g) and h' = σ(o)·tanh(c'). The reference joins `x` and `h` into one row of length 2048,
  multiplies by the whole transposed weight, and spells the logistic function as 1 / (1 + exp (-z)).

  The two agree entry by entry: a sum over 2048 indices is the sum over its first 1024 plus the sum over its
  last 1024 (`CellSpec.sum_halves`), and the quotient is the logistic function (`CellSpec.logistic_quotient`).
  Both facts hold for every extended real, so the finiteness of the inputs is not used.

  `CellSpec` states the cell step; `RefCell` shows the reference's results are it; `Tile` reads the kernel body's
  arithmetic on one tile; `Staged` reads the arrays the kernel's region finds; `Blocks` carries the tiles to the
  result arrays and states the kernel's run.
-/
import proofs.«147838_j76055280877767_1_alg».proof.Defs
import proofs.«147838_j76055280877767_1_alg».proof.Proof.Gen.Kernel
import proofs.«147838_j76055280877767_1_alg».proof.Proof.Gen.Kernel.Skeleton
import proofs.«147838_j76055280877767_1_alg».proof.Proof.Gen.Kernel.Launch
import proofs.«147838_j76055280877767_1_alg».proof.Proof.Gen.Kernel.Points
import proofs.«147838_j76055280877767_1_alg».proof.Proof.Gen.Kernel.Frame
import proofs.«147838_j76055280877767_1_alg».proof.Proof.Gen.KernelIdeal
import proofs.«147838_j76055280877767_1_alg».proof.Proof.Gen.KernelIdeal.Skeleton
import proofs.«147838_j76055280877767_1_alg».proof.Proof.Gen.KernelIdeal.Launch
import proofs.«147838_j76055280877767_1_alg».proof.Proof.Gen.KernelIdeal.Points
import proofs.«147838_j76055280877767_1_alg».proof.Proof.Gen.KernelIdeal.Frame
import proofs.«147838_j76055280877767_1_alg».proof.Proof.Gen.ReferenceIdeal
import proofs.«147838_j76055280877767_1_alg».proof.Proof.Gen.KernelIdeal.Value
import proofs.«147838_j76055280877767_1_alg».proof.Proof.Gen.ReferenceIdeal.Run
import proofs.«147838_j76055280877767_1_alg».proof.Proof.Gen.ReferenceIdeal.Read
import proofs.«147838_j76055280877767_1_alg».proof.Proof.Gen.Pre_finite_inputs
import proofs.«147838_j76055280877767_1_alg».proof.Proof.CellSpec
import proofs.«147838_j76055280877767_1_alg».proof.Proof.RefCell
import proofs.«147838_j76055280877767_1_alg».proof.Proof.Blocks
import Idealize.ShloMosaic.Adequacy
import Idealize.ShloMosaic.Init

noncomputable section

namespace Cert.Proof

open Idealize.ShloMosaic Idealize.SL.Sem Cert.CellSpec

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference terminates and leaves its arguments as they were: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the hidden state and the cell state of the cell step of their (equal) arguments. -/
theorem algebraic : Cert.algebraic_KernelIdeal_ReferenceIdeal := by
  intro m ρ m' ρ' _ hagree
  refine ⟨fun c => hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v44_eq, Cert.ReferenceIdeal.RefCell.hidden_eq, a0, a1, a2, a3, a4, a5, a6, a7, a8, a9, a10]
  · rw [Cert.ReferenceIdeal.Read.val_main_v42_eq, Cert.ReferenceIdeal.RefCell.cell_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
